-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg7 : FVec F S128 .f32) (main_arg8 : FVec F S512x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg8
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S8192x4x16 32) (main_arg1 : IVec S8192 32) (main_arg2 : IVec S8192 32) (main_arg3 : FVec F S1000000x128 .f32) (main_arg4 : FVec F S1000000x128 .f32) (main_arg5 : FVec F S64x128 .f32) (main_arg6 : FVec F S128x128 .f32) (main_arg7 : FVec F S128 .f32) (main_arg8 : FVec F S512x128 .f32) (main_arg9 : FVec F S128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg4
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩
abbrev S8192x4x16x1 : Shape := ⟨4, ![8192, 4, 16, 1]⟩
abbrev S8192x4x16x128 : Shape := ⟨4, ![8192, 4, 16, 128]⟩
abbrev S8192x4x128 : Shape := ⟨3, ![8192, 4, 128]⟩
abbrev S8192x1 : Shape := ⟨2, ![8192, 1]⟩
abbrev S8192x128 : Shape := ⟨2, ![8192, 128]⟩
abbrev S512x4x128 : Shape := ⟨3, ![512, 4, 128]⟩
abbrev S512 : Shape := ⟨1, ![512]⟩
abbrev S2048x128 : Shape := ⟨2, ![2048, 128]⟩
abbrev S1x128 : Shape := ⟨2, ![1, 128]⟩
abbrev S512x512 : Shape := ⟨2, ![512, 512]⟩

abbrev nBuf : Space → Nat
  | .hbm => 43
  | .vmem => 12
  | .smem => 0
  | _ => 0

abbrev bufTy : (tb : Table) → Fin (tcTables nBuf tb) → BufTy
  | .hbm, ⟨0, _⟩ => ⟨S8192x4x16, .i32⟩
  | .hbm, ⟨1, _⟩ => ⟨S8192, .i32⟩
  | .hbm, ⟨2, _⟩ => ⟨S8192, .i32⟩
  | .hbm, ⟨3, _⟩ => ⟨S1000000x128, .f32⟩
  | .hbm, ⟨4, _⟩ => ⟨S1000000x128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S512x128, .f32⟩
  | .hbm, ⟨9, _⟩ => ⟨S128, .f32⟩
  | .hbm, ⟨10, _⟩ => ⟨S_, .i32⟩
  | .hbm, ⟨11, _⟩ => ⟨S8192x4x16, .i32⟩
  | .hbm, ⟨12, _⟩ => ⟨S8192x4x16, .i1⟩
  | .hbm, ⟨13, _⟩ => ⟨S_, .i32⟩
  | .hbm, ⟨14, _⟩ => ⟨S8192x4x16, .i32⟩
  | .hbm, ⟨15, _⟩ => ⟨S8192x4x16, .i32⟩
  | .hbm, ⟨16, _⟩ => ⟨S8192x4x16, .i32⟩
  | .hbm, ⟨17, _⟩ => ⟨S8192x4x16x1, .i32⟩
  | .hbm, ⟨18, _⟩ => ⟨S8192x4x16x128, .f32⟩
  | .hbm, ⟨19, _⟩ => ⟨S_, .f32⟩
  | .hbm, ⟨20, _⟩ => ⟨S8192x4x128, .f32⟩
  | .hbm, ⟨21, _⟩ => ⟨S_, .f32⟩
  | .hbm, ⟨22, _⟩ => ⟨S8192x4x128, .f32⟩
  | .hbm, ⟨23, _⟩ => ⟨S8192x4x128, .f32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S8192x1, .i32⟩
  | .hbm, ⟨32, _⟩ => ⟨S8192x128, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x128, .f32⟩
  | .hbm, ⟨42, _⟩ => ⟨S8192, .f32⟩
  | .local _ .vmem, ⟨0, _⟩ => ⟨S512x4x128, .f32⟩
  | .local _ .vmem, ⟨1, _⟩ => ⟨S512x4x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128, .f32⟩
  | .local _ .vmem, ⟨8, _⟩ => ⟨S512x128, .f32⟩
  | .local _ .vmem, ⟨9, _⟩ => ⟨S128, .f32⟩
  | .local _ .vmem, ⟨10, _⟩ => ⟨S512, .f32⟩
  | .local _ .vmem, ⟨11, _⟩ => ⟨S512, .f32⟩
  | _, _ => ⟨S8192x4x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192x4x16 : S_.BroadcastsInDim S8192x4x16 (![] : Fin 0 → Fin S8192x4x16.rank)
  bcast_S8192x4x16_S8192x4x16x1_0_1_2 : S8192x4x16.BroadcastsInDim S8192x4x16x1 (![0, 1, 2] : Fin 3 → Fin S8192x4x16x1.rank)
  reducesTo_S8192x4x16x128_S8192x4x128_d2 : S8192x4x16x128.ReducesTo [2] S8192x4x128
  h_S_ : 0 < S_.numel
  bcast_S_S8192x4x128 : S_.BroadcastsInDim S8192x4x128 (![] : Fin 0 → Fin S8192x4x128.rank)
  bcast_S_S8192 : S_.BroadcastsInDim S8192 (![] : Fin 0 → Fin S8192.rank)
  bcast_S8192_S8192x1_0 : S8192.BroadcastsInDim S8192x1 (![0] : Fin 1 → Fin S8192x1.rank)
  inb_S512x4x128_S512x4x128_0_0_0 : ∀ a, (![0, 0, 0] : Fin 3 → Nat) a + S512x4x128.size a ≤ S512x4x128.size a
  h_S512x4x128 : 0 < S512x4x128.numel
  shapeCasts_S512x4x128_S512x4x128 : S512x4x128.ShapeCasts S512x4x128
  bitsLt_bf16_f32 : FTy.bits .bf16 < FTy.bits .f32
  shapeCasts_S512x4x128_S2048x128 : S512x4x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  shapeCasts_S2048x128_S512x512 : S2048x128.ShapeCasts S512x512
  inb_S512x128_S512x128_0_0 : ∀ a, (![0, 0] : Fin 2 → Nat) a + S512x128.size a ≤ S512x128.size a
  h_S512x128 : 0 < S512x128.numel
  broadcasts_S1x128_S512x128 : S1x128.Broadcasts S512x128
  shapeCasts_S512x128_S512x128 : S512x128.ShapeCasts S512x128
  reduces_S512x128_S512 : S512x128.Reduces [1] S512
  inb_S512_S512_0 : ∀ a, (![0] : Fin 1 → Nat) a + S512.size a ≤ S512.size a
  h_S512 : 0 < S512.numel
  gather_S1000000x128_S8192x4x16x1_S8192x4x16x128_3_0_n_n_0_3_1128_wf : GatherDims.WF S1000000x128 S8192x4x16x1 S8192x4x16x128 [3] [0] [] [0] [] 3 ![1, 128]
  gather_S1000000x128_S8192x1_S8192x128_1_0_n_n_0_1_1128_wf : GatherDims.WF S1000000x128 S8192x1 S8192x128 [1] [0] [] [0] [] 1 ![1, 128]
  gather_S64x128_S8192x1_S8192x128_1_0_n_n_0_1_1128_wf : GatherDims.WF S64x128 S8192x1 S8192x128 [1] [0] [] [0] [] 1 ![1, 128]
  dot_S2048x128_S128x128_S2048x128_1_0_0_1_n_n_wf : DotDims.WF S2048x128 S128x128 S2048x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4x128.size a ≤ S8192x4x128.size a
  hwx0_0 : ∀ i : grid0.Coords, EltTy.bits .f32 = 32 ∨ (Rect.block (s := S8192x4x128) S512x4x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S8192.size a
  hwx0_7 : ∀ i : grid0.Coords, EltTy.bits .f32 = 32 ∨ (Rect.block (s := S8192) S512.size (cc0_transform_7 i) (hinb0_7 i)).WholeWords (EltTy.packing .f32)

variable [Facts₀]

def gather_S1000000x128_S8192x4x16x1_S8192x4x16x128_3_0_n_n_0_3_1128 : GatherDims S1000000x128 S8192x4x16x1 S8192x4x16x128 where
  offsetDims := [3]
  collapsedSliceDims := [0]
  operandBatchingDims := []
  startIndicesBatchingDims := []
  startIndexMap := [0]
  indexVectorDim := 3
  sliceSizes := ![1, 128]
  wf := gather_S1000000x128_S8192x4x16x1_S8192x4x16x128_3_0_n_n_0_3_1128_wf
def gather_S1000000x128_S8192x1_S8192x128_1_0_n_n_0_1_1128 : GatherDims S1000000x128 S8192x1 S8192x128 where
  offsetDims := [1]
  collapsedSliceDims := [0]
  operandBatchingDims := []
  startIndicesBatchingDims := []
  startIndexMap := [0]
  indexVectorDim := 1
  sliceSizes := ![1, 128]
  wf := gather_S1000000x128_S8192x1_S8192x128_1_0_n_n_0_1_1128_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v9) S512x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩
abbrev S8192x4x16x1 : Shape := ⟨4, ![8192, 4, 16, 1]⟩
abbrev S8192x4x16x128 : Shape := ⟨4, ![8192, 4, 16, 128]⟩
abbrev S8192x4x128 : Shape := ⟨3, ![8192, 4, 128]⟩
abbrev S1x1x128 : Shape := ⟨3, ![1, 1, 128]⟩
abbrev S8192x512 : Shape := ⟨2, ![8192, 512]⟩
abbrev S8192x128 : Shape := ⟨2, ![8192, 128]⟩
abbrev S1x128 : Shape := ⟨2, ![1, 128]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x4x16, .i32⟩
  | .hbm, ⟨1, _⟩ => ⟨S8192, .i32⟩
  | .hbm, ⟨2, _⟩ => ⟨S8192, .i32⟩
  | .hbm, ⟨3, _⟩ => ⟨S1000000x128, .f32⟩
  | .hbm, ⟨4, _⟩ => ⟨S1000000x128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S512x128, .f32⟩
  | .hbm, ⟨9, _⟩ => ⟨S128, .f32⟩
  | .hbm, ⟨10, _⟩ => ⟨S_, .i32⟩
  | .hbm, ⟨11, _⟩ => ⟨S8192x4x16, .i32⟩
  | .hbm, ⟨12, _⟩ => ⟨S8192x4x16, .i1⟩
  | .hbm, ⟨13, _⟩ => ⟨S_, .i32⟩
  | .hbm, ⟨14, _⟩ => ⟨S8192x4x16, .i32⟩
  | .hbm, ⟨15, _⟩ => ⟨S8192x4x16, .i32⟩
  | .hbm, ⟨16, _⟩ => ⟨S8192x4x16, .i32⟩
  | .hbm, ⟨17, _⟩ => ⟨S8192x4x16x1, .i32⟩
  | .hbm, ⟨18, _⟩ => ⟨S8192x4x16x128, .f32⟩
  | .hbm, ⟨19, _⟩ => ⟨S_, .f32⟩
  | .hbm, ⟨20, _⟩ => ⟨S8192x4x128, .f32⟩
  | .hbm, ⟨21, _⟩ => ⟨S_, .f32⟩
  | .hbm, ⟨22, _⟩ => ⟨S8192x4x128, .f32⟩
  | .hbm, ⟨23, _⟩ => ⟨S8192x4x128, .f32⟩
  | .hbm, ⟨24, _⟩ => ⟨S8192x4x128, .f32⟩
  | .hbm, ⟨25, _⟩ => ⟨S1x1x128, .f32⟩
  | .hbm, ⟨26, _⟩ => ⟨S8192x4x128, .f32⟩
  | .hbm, ⟨27, _⟩ => ⟨S8192x4x128, .f32⟩
  | .hbm, ⟨28, _⟩ => ⟨S8192x512, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x128, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | _, _ => ⟨S8192x4x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S8192x4x16 : S_.BroadcastsInDim S8192x4x16 (![] : Fin 0 → Fin S8192x4x16.rank)
  bcast_S8192x4x16_S8192x4x16x1_0_1_2 : S8192x4x16.BroadcastsInDim S8192x4x16x1 (![0, 1, 2] : Fin 3 → Fin S8192x4x16x1.rank)
  reducesTo_S8192x4x16x128_S8192x4x128_d2 : S8192x4x16x128.ReducesTo [2] S8192x4x128
  h_S_ : 0 < S_.numel
  bcast_S_S8192x4x128 : S_.BroadcastsInDim S8192x4x128 (![] : Fin 0 → Fin S8192x4x128.rank)
  bcast_S128_S1x1x128_2 : S128.BroadcastsInDim S1x1x128 (![2] : Fin 1 → Fin S1x1x128.rank)
  bcast_S1x1x128_S8192x4x128_0_1_2 : S1x1x128.BroadcastsInDim S8192x4x128 (![0, 1, 2] : Fin 3 → Fin S8192x4x128.rank)
  shapeCasts_S8192x4x128_S8192x512 : S8192x4x128.ShapeCasts S8192x512
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  reducesTo_S8192x128_S8192_d1 : S8192x128.ReducesTo [1] S8192
  gather_S1000000x128_S8192x4x16x1_S8192x4x16x128_3_0_n_n_0_3_1128_wf : GatherDims.WF S1000000x128 S8192x4x16x1 S8192x4x16x128 [3] [0] [] [0] [] 3 ![1, 128]
  dot_S8192x4x128_S128x128_S8192x4x128_2_0_01_1_n_n_wf : DotDims.WF S8192x4x128 S128x128 S8192x4x128 [2] [0] [0, 1] [1] [] []
  dot_S8192x512_S512x128_S8192x128_1_0_0_1_n_n_wf : DotDims.WF S8192x512 S512x128 S8192x128 [1] [0] [0] [1] [] []
  gather_S1000000x128_S8192x1_S8192x128_1_0_n_n_0_1_1128_wf : GatherDims.WF S1000000x128 S8192x1 S8192x128 [1] [0] [] [0] [] 1 ![1, 128]
  gather_S64x128_S8192x1_S8192x128_1_0_n_n_0_1_1128_wf : GatherDims.WF S64x128 S8192x1 S8192x128 [1] [0] [] [0] [] 1 ![1, 128]

variable [Facts₀]

def gather_S1000000x128_S8192x4x16x1_S8192x4x16x128_3_0_n_n_0_3_1128 : GatherDims S1000000x128 S8192x4x16x1 S8192x4x16x128 where
  offsetDims := [3]
  collapsedSliceDims := [0]
  operandBatchingDims := []
  startIndicesBatchingDims := []
  startIndexMap := [0]
  indexVectorDim := 3
  sliceSizes := ![1, 128]
  wf := gather_S1000000x128_S8192x4x16x1_S8192x4x16x128_3_0_n_n_0_3_1128_wf
def dot_S8192x4x128_S128x128_S8192x4x128_2_0_01_1_n_n : DotDims S8192x4x128 S128x128 S8192x4x128 where
  lhsContracting := [2]
  rhsContracting := [0]
  lhsNonContracting := [0, 1]
  rhsNonContracting := [1]
  lhsBatch := []
  rhsBatch := []
  wf := dot_S8192x4x128_S128x128_S8192x4x128_2_0_01_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S1000000x128_S8192x1_S8192x128_1_0_n_n_0_1_1128 : GatherDims S1000000x128 S8192x1 S8192x128 where
  offsetDims := [1]
  collapsedSliceDims := [0]
  operandBatchingDims := []
  startIndicesBatchingDims := []
  startIndexMap := [0]
  indexVectorDim := 1
  sliceSizes := ![1, 128]
  wf := gather_S1000000x128_S8192x1_S8192x128_1_0_n_n_0_1_1128_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf

class Facts : Prop extends Facts₀ where

variable [Facts]
-- ==== Proof.Score.lean ====
/-
  The link score, as one function of its arrays.

  For a batch row `r`, four edge types and width 128: the aggregated neighbour rows `agg (r, e, ·)` go through one
  affine layer per edge type, `h (r, e, f) = ∑ d, agg (r, e, d) · W1 (d, f) + b1 f`; the four results are laid side by
  side as one row of length 512, column `j` holding edge type `j / 128` and feature `j % 128`; a second affine layer
  gives `s (r, g) = ∑ j, h (r, j) · W2 (j, g) + b2 g`; and the score is
  `σ (∑ g, s (r, g) · e (r, g) · σ (p (r, g)))`, with `σ x = 1 / (1 + exp (−x))` on the extended reals.
  The score of row `r` reads only row `r` of `agg`, `e` and `p`: that is what lets a tile of rows be scored by itself.
-/
import Idealize.ShloMosaic.PureOps.Ideal
import Idealize.ShloMosaic.Lib.ValueIdx

noncomputable section

namespace Cert.Score

open Idealize.ShloMosaic Idealize.ShloMosaic.ValueIdx

variable {B : ℕ}

/-- Column `j` of the hidden row: edge type `j / 128`, feature `j % 128`. -/
def hidden (agg : (⟨3, ![B, 4, 128]⟩ : Shape).Idx → EReal) (W1 : (⟨2, ![128, 128]⟩ : Shape).Idx → EReal)
    (b1 : (⟨1, ![128]⟩ : Shape).Idx → EReal) (r : Fin B) (j : Fin 512) : EReal :=
  (∑ d : Fin 128, agg (ix3 r (⟨j.val / 128, by omega⟩ : Fin 4) d) * W1 (ix2 d (⟨j.val % 128, by omega⟩ : Fin 128)))
    + b1 (ix1 (⟨j.val % 128, by omega⟩ : Fin 128))

/-- The projected row: the hidden row through the second affine layer. -/
def proj (agg : (⟨3, ![B, 4, 128]⟩ : Shape).Idx → EReal) (W1 : (⟨2, ![128, 128]⟩ : Shape).Idx → EReal)
    (b1 : (⟨1, ![128]⟩ : Shape).Idx → EReal) (W2 : (⟨2, ![512, 128]⟩ : Shape).Idx → EReal)
    (b2 : (⟨1, ![128]⟩ : Shape).Idx → EReal) (r : Fin B) (g : Fin 128) : EReal :=
  (∑ j : Fin 512, hidden agg W1 b1 r j * W2 (ix2 j g)) + b2 (ix1 g)

/-- The score of row `r`. -/
def scoreAt (agg : (⟨3, ![B, 4, 128]⟩ : Shape).Idx → EReal) (e p : (⟨2, ![B, 128]⟩ : Shape).Idx → EReal)
    (W1 : (⟨2, ![128, 128]⟩ : Shape).Idx → EReal) (b1 : (⟨1, ![128]⟩ : Shape).Idx → EReal)
    (W2 : (⟨2, ![512, 128]⟩ : Shape).Idx → EReal) (b2 : (⟨1, ![128]⟩ : Shape).Idx → EReal) (r : Fin B) : EReal :=
  Ideal.logistic (∑ g : Fin 128, proj agg W1 b1 W2 b2 r g * e (ix2 r g) * Ideal.logistic (p (ix2 r g)))

/-- The scores of all rows, as an array. -/
def score (agg : (⟨3, ![B, 4, 128]⟩ : Shape).Idx → EReal) (e p : (⟨2, ![B, 128]⟩ : Shape).Idx → EReal)
    (W1 : (⟨2, ![128, 128]⟩ : Shape).Idx → EReal) (b1 : (⟨1, ![128]⟩ : Shape).Idx → EReal)
    (W2 : (⟨2, ![512, 128]⟩ : Shape).Idx → EReal) (b2 : (⟨1, ![128]⟩ : Shape).Idx → EReal) :
    (⟨1, ![B]⟩ : Shape).Idx → EReal :=
  fun i => scoreAt agg e p W1 b1 W2 b2 (i 0)

theorem score_ix1 (agg : (⟨3, ![B, 4, 128]⟩ : Shape).Idx → EReal) (e p : (⟨2, ![B, 128]⟩ : Shape).Idx → EReal)
    (W1 : (⟨2, ![128, 128]⟩ : Shape).Idx → EReal) (b1 : (⟨1, ![128]⟩ : Shape).Idx → EReal)
    (W2 : (⟨2, ![512, 128]⟩ : Shape).Idx → EReal) (b2 : (⟨1, ![128]⟩ : Shape).Idx → EReal) (r : Fin B) :
    score agg e p W1 b1 W2 b2 (ix1 r) = scoreAt agg e p W1 b1 W2 b2 r := rfl

/-- A row's score depends on the three row-indexed arrays through that row alone, and on the weights entry by
    entry: two families of arrays, of any two heights, whose row-indexed members agree on row `r'` of the one and row
    `r` of the other, and whose weights agree, give the same score. -/
theorem scoreAt_congr {B' : ℕ}
    (agg' : (⟨3, ![B', 4, 128]⟩ : Shape).Idx → EReal) (e' p' : (⟨2, ![B', 128]⟩ : Shape).Idx → EReal)
    (W1' : (⟨2, ![128, 128]⟩ : Shape).Idx → EReal) (b1' : (⟨1, ![128]⟩ : Shape).Idx → EReal)
    (W2' : (⟨2, ![512, 128]⟩ : Shape).Idx → EReal) (b2' : (⟨1, ![128]⟩ : Shape).Idx → EReal)
    (agg : (⟨3, ![B, 4, 128]⟩ : Shape).Idx → EReal) (e p : (⟨2, ![B, 128]⟩ : Shape).Idx → EReal)
    (W1 : (⟨2, ![128, 128]⟩ : Shape).Idx → EReal) (b1 : (⟨1, ![128]⟩ : Shape).Idx → EReal)
    (W2 : (⟨2, ![512, 128]⟩ : Shape).Idx → EReal) (b2 : (⟨1, ![128]⟩ : Shape).Idx → EReal) (r' : Fin B') (r : Fin B)
    (hagg : ∀ (k : Fin 4) (d : Fin 128), agg' (ix3 r' k d) = agg (ix3 r k d))
    (he : ∀ g : Fin 128, e' (ix2 r' g) = e (ix2 r g)) (hp : ∀ g : Fin 128, p' (ix2 r' g) = p (ix2 r g))
    (hW1 : ∀ d f : Fin 128, W1' (ix2 d f) = W1 (ix2 d f)) (hb1 : ∀ f : Fin 128, b1' (ix1 f) = b1 (ix1 f))
    (hW2 : ∀ (j : Fin 512) (g : Fin 128), W2' (ix2 j g) = W2 (ix2 j g)) (hb2 : ∀ g : Fin 128, b2' (ix1 g) = b2 (ix1 g)) :
    scoreAt agg' e' p' W1' b1' W2' b2' r' = scoreAt agg e p W1 b1 W2 b2 r := by
  unfold scoreAt proj hidden
  simp only [hagg, he, hp, hW1, hb1, hW2, hb2]

end Cert.Score

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAffineLayer.lean ====
/-
  Rows and affine layers read at an entry, over the extended reals.

  A vector `[n]` recast as the row `[1, n]` and repeated down `m` rows is, at `(r, c)`, the vector's entry `c`.
  With that, the tile of an affine layer — an `M × K` by `K × N` product into the zero matrix plus a bias vector
  spread down the rows — is at `(a, c)` the sum `∑ k, l (a, k) · W (k, c)` plus `b c`; and a narrowing of the float
  format, which on the extended reals changes nothing, may stand on the left operand.
-/
import proofs.«141421_j49589692400134_2_alg».proof.Proof.LibPlainMatmul
import proofs.«141421_j49589692400134_2_alg».proof.Proof.LibRows
import Idealize.ShloMosaic.Lib.ValueLayout

noncomputable section

namespace Cert.AffineLayer

open Idealize.ShloMosaic Idealize.ShloMosaic.ValueIdx

variable {α : Type}

/-- A vector `[n]` recast as the row `[1, n]`, read at `(0, c)`, is the vector at `c`. -/
theorem cast_row {n : ℕ} (v : (⟨1, ![n]⟩ : Shape).Idx → α) (h : (⟨1, ![n]⟩ : Shape).ShapeCasts ⟨2, ![1, n]⟩) (c : Fin n) :
    shapeCast ⟨2, ![1, n]⟩ v h (ix2 (0 : Fin 1) c) = v (ix1 c) :=
  shapeCast_apply v h (ix2 0 c) (ix1 c) (by
    rw [Shape.rowMajor_val_one, Shape.rowMajor_val_two]; show c.val = 0 * n + c.val; omega)

/-- A vector `[n]` recast as a row and repeated down `m` rows, read at `(r, c)`, is the vector at `c`. -/
theorem row_of_vector {m n : ℕ} (hn : n ≠ 1) (v : (⟨1, ![n]⟩ : Shape).Idx → α)
    (hc : (⟨1, ![n]⟩ : Shape).ShapeCasts ⟨2, ![1, n]⟩) (hb : (⟨2, ![1, n]⟩ : Shape).Broadcasts ⟨2, ![m, n]⟩)
    (r : Fin m) (c : Fin n) :
    broadcastTo ⟨2, ![m, n]⟩ (shapeCast ⟨2, ![1, n]⟩ v hc) hb (ix2 r c) = v (ix1 c) :=
  (Cert.Rows.bcast_row hn _ hb r c).trans (cast_row v hc c)

/-- An affine layer's tile at `(a, c)`: the product's sum plus the bias entry. -/
theorem affine_apply {M K N : ℕ} (hN : N ≠ 1) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    {φ₁ φ₂ : FTy} (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (a : Fin M) (c : Fin N) :
    addf (matmul D prec l W (constant (F := Ideal) ⟨2, ![M, N]⟩ .f32 0x00000000#32))
        (broadcastTo ⟨2, ![M, N]⟩ (shapeCast ⟨2, ![1, N]⟩ b hc) hb) (ix2 a c)
      = (∑ k : Fin K, l (ix2 a k) * W (ix2 k c)) + b (ix1 c) := by
  rw [addf_apply, row_of_vector hN b hc hb a c]
  exact congrArg (· + b (ix1 c)) (Cert.LibPlainMatmul.matmul_zero_apply D hlc hrc hln hrn hlb hrb prec l W a c)

end Cert.AffineLayer

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«141421_j49589692400134_2_alg».proof.Proof.LibRows
import proofs.«141421_j49589692400134_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.TileScore.lean ====
/-
  The kernel body's result for one tile of 512 rows, read at a row.

  The body flattens the tile's aggregated rows `[512, 4, 128]` to `[2048, 128]` (flat row `r · 4 + k` is row `r`, edge
  type `k`), applies the first affine layer to all 2048 flat rows at once, reads the result `[2048, 128]` as
  `[512, 512]` (row `r`, column `j` is flat row `r · 4 + j / 128`, feature `j % 128`: both layouts put the entry at
  position `r · 512 + j`), applies the second affine layer, multiplies by the end rows and the squashed path rows, sums
  each row and squashes. Narrowing a float format changes nothing on the extended reals, and a matrix product into the
  zero matrix is the plain sum of products there. So at row `r` the body's result is the score of row `r` of the tile.
-/
import proofs.«141421_j49589692400134_2_alg».proof.Proof.Gen.KernelIdeal.Skeleton
import proofs.«141421_j49589692400134_2_alg».proof.Proof.Score
import proofs.«141421_j49589692400134_2_alg».proof.Proof.LibAffineLayer
import proofs.«141421_j49589692400134_2_alg».proof.Proof.LibMatrixReduce
import Idealize.ShloMosaic.Lib.Pipeline.Value

noncomputable section

namespace Cert.TileScore

open Cert.KernelIdeal Cert.KernelIdeal.Gen Idealize.ShloMosaic Idealize.ShloMosaic.ValueIdx

/-- The tile's rows flattened to `[2048, 128]`: flat row `a` is row `a / 4`, edge type `a % 4`. -/
theorem flat_rows (x : FVec Ideal S512x4x128 .f32) (h0 : S512x4x128.ShapeCasts S512x4x128)
    (h1 : S512x4x128.ShapeCasts S2048x128) (hb : FTy.bf16.bits < FTy.f32.bits) (a : Fin 2048) (d : Fin 128) :
    (shapeCast S2048x128 (truncf (F := Ideal) (φ := .f32) .bf16 (shapeCast S512x4x128 x h0) hb) h1 (ix2 a d) : EReal)
      = x (ix3 (⟨a.val / 4, by omega⟩ : Fin 512) (⟨a.val % 4, by omega⟩ : Fin 4) d) := by
  rw [shapeCast_self]
  exact shapeCast_apply (truncf (F := Ideal) (φ := .f32) .bf16 x hb) h1 (ix2 a d)
    (ix3 (⟨a.val / 4, by omega⟩ : Fin 512) (⟨a.val % 4, by omega⟩ : Fin 4) d) (by
      rw [Shape.rowMajor_val_three, Shape.rowMajor_val_two]
      show (a.val / 4 * 4 + a.val % 4) * 128 + d.val = a.val * 128 + d.val
      omega)

/-- The first affine layer on the flattened tile, read back as `[512, 512]`, at row `r` and column `j`. -/
theorem hidden_tile (x : FVec Ideal S512x4x128 .f32) (w : FVec Ideal S128x128 .f32) (b : FVec Ideal S128 .f32)
    (h0 : S512x4x128.ShapeCasts S512x4x128) (h1 : S512x4x128.ShapeCasts S2048x128)
    (hb : FTy.bf16.bits < FTy.f32.bits) (hc : S128.ShapeCasts S1x128) (hbr : S1x128.Broadcasts S2048x128)
    (h2 : S2048x128.ShapeCasts S512x512) (r : Fin 512) (j : Fin 512) :
    shapeCast S512x512
        (addf (matmul dot_S2048x128_S128x128_S2048x128_1_0_0_1_n_n none
            (shapeCast S2048x128 (truncf (F := Ideal) (φ := .f32) .bf16 (shapeCast S512x4x128 x h0) hb) h1) (truncf (F := Ideal) (φ := .f32) .bf16 w hb)
            (constant (F := Ideal) S2048x128 .f32 0x00000000#32))
          (broadcastTo S2048x128 (shapeCast S1x128 b hc) hbr)) h2 (ix2 r j)
      = Cert.Score.hidden x w b r j := by
  rw [shapeCast_apply _ h2 (ix2 r j)
    (ix2 (⟨r.val * 4 + j.val / 128, by omega⟩ : Fin 2048) (⟨j.val % 128, by omega⟩ : Fin 128)) (by
      rw [Shape.rowMajor_val_two, Shape.rowMajor_val_two]
      show (r.val * 4 + j.val / 128) * 128 + j.val % 128 = r.val * 512 + j.val
      omega)]
  refine (Cert.AffineLayer.affine_apply (by decide) dot_S2048x128_S128x128_S2048x128_1_0_0_1_n_n rfl rfl rfl rfl rfl rfl
    none _ _ b hc hbr _ _).trans ?_
  unfold Cert.Score.hidden
  refine congrArg (· + _) (Finset.sum_congr rfl fun d _ => ?_)
  have e : ix3 (⟨(r.val * 4 + j.val / 128) / 4, by omega⟩ : Fin 512) (⟨(r.val * 4 + j.val / 128) % 4, by omega⟩ : Fin 4) d
      = ix3 r (⟨j.val / 128, by omega⟩ : Fin 4) d :=
    funext fun a => Fin.ext (by
      match a with
      | ⟨0, _⟩ => show (r.val * 4 + j.val / 128) / 4 = r.val; omega
      | ⟨1, _⟩ => show (r.val * 4 + j.val / 128) % 4 = j.val / 128; omega
      | ⟨2, _⟩ => rfl)
  exact congrArg (· * w (ix2 d (⟨j.val % 128, by omega⟩ : Fin 128)))
    ((flat_rows x h0 h1 hb (⟨r.val * 4 + j.val / 128, by omega⟩ : Fin 2048) d).trans (congrArg x e))

/-- The second affine layer on a tile's hidden rows, at row `r` and column `g`. -/
theorem proj_tile (h : FVec Ideal S512x512 .f32) (w2 : FVec Ideal S512x128 .f32) (b2 : FVec Ideal S128 .f32)
    (hb : FTy.bf16.bits < FTy.f32.bits) (hc : S128.ShapeCasts S1x128) (hbr : S1x128.Broadcasts S512x128)
    (r : Fin 512) (g : Fin 128) :
    addf (matmul dot_S512x512_S512x128_S512x128_1_0_0_1_n_n none (truncf (F := Ideal) (φ := .f32) .bf16 h hb) (truncf (F := Ideal) (φ := .f32) .bf16 w2 hb)
        (constant (F := Ideal) S512x128 .f32 0x00000000#32))
      (broadcastTo S512x128 (shapeCast S1x128 b2 hc) hbr) (ix2 r g)
      = (∑ j : Fin 512, h (ix2 r j) * w2 (ix2 j g)) + b2 (ix1 g) :=
  Cert.AffineLayer.affine_apply (by decide) dot_S512x512_S512x128_S512x128_1_0_0_1_n_n rfl rfl rfl rfl rfl rfl
    none _ _ b2 hc hbr r g

/-- The weighted row sum and the final squashing, at row `r`. -/
theorem squash_tile (s e p : FVec Ideal S512x128 .f32) (h : S512x128.ShapeCasts S512x128)
    (hred : S512x128.Reduces [1] S512) (hφ : FKind.Formats .f32) (hacc : (0x00000000#32 : BitVec 32) = FKind.add.neutral .f32 hφ)
    (r : Fin 512) :
    logistic (multiReduction .add [1] S512
        (mulf (mulf s (shapeCast S512x128 e h)) (logistic (shapeCast S512x128 p h))) 0x00000000#32 hred hφ hacc) (ix1 r)
      = Ideal.logistic (∑ g : Fin 128, s (ix2 r g) * e (ix2 r g) * Ideal.logistic (p (ix2 r g))) := by
  rw [shapeCast_self, shapeCast_self]
  show Ideal.logistic (multiReduction .add [1] S512 (mulf (mulf s e) (logistic p)) 0x00000000#32 hred hφ hacc (ix1 r)) = _
  refine congrArg Ideal.logistic ?_
  exact Cert.LibMatrixReduce.rowSum_apply _ _ hred hφ hacc r

/-- THE BODY'S RESULT AT ROW `r` of a tile is the score of row `r` of the tile's blocks. -/
theorem pay_apply (v0 : FVec Ideal S512x4x128 .f32) (v4 : FVec Ideal S128x128 .f32) (v7 : FVec Ideal S128 .f32)
    (v13 : FVec Ideal S512x128 .f32) (v16 : FVec Ideal S128 .f32) (v20 v22 : FVec Ideal S512x128 .f32) (r : Fin 512) :
    k0_pay1 (F := Ideal) v0 v4 v7 v13 v16 v20 v22 (ix1 r) = Cert.Score.scoreAt (B := 512) v0 v20 v22 v4 v7 v13 v16 r := by
  unfold k0_pay1
  refine (squash_tile _ v20 v22 _ _ _ _ r).trans ?_
  unfold Cert.Score.scoreAt Cert.Score.proj
  refine congrArg Ideal.logistic (Finset.sum_congr rfl fun g _ => ?_)
  refine congrArg (fun z => z * v20 (ix2 r g) * Ideal.logistic (v22 (ix2 r g))) ?_
  refine (proj_tile _ v13 v16 _ _ _ r g).trans ?_
  refine congrArg (· + v16 (ix1 g)) (Finset.sum_congr rfl fun j _ => ?_)
  exact congrArg (· * v13 (ix2 j g)) (hidden_tile v0 v4 v7 _ _ _ _ _ _ r j)

/-- The same at any index of the tile's result vector. -/
theorem pay_at (v0 : FVec Ideal S512x4x128 .f32) (v4 : FVec Ideal S128x128 .f32) (v7 : FVec Ideal S128 .f32)
    (v13 : FVec Ideal S512x128 .f32) (v16 : FVec Ideal S128 .f32) (v20 v22 : FVec Ideal S512x128 .f32) (y : S512.Idx) :
    k0_pay1 (F := Ideal) v0 v4 v7 v13 v16 v20 v22 y = Cert.Score.scoreAt (B := 512) v0 v20 v22 v4 v7 v13 v16 (y 0) := by
  obtain ⟨r, rfl⟩ : ∃ r : Fin 512, y = ix1 r := ⟨y 0, eq_ix1 y⟩
  exact pay_apply v0 v4 v7 v13 v16 v20 v22 r

end Cert.TileScore

end
-- ==== Proof.KernelValue.lean ====
/-
  From tiles to the whole array.

  The batch of 8192 rows is cut into 16 tiles of 512 rows; tile `t` holds rows `t · 512 … t · 512 + 511` of the
  aggregated rows, the end rows and the path rows, and the four weight arrays whole. The body scores a tile's rows from
  the tile's own blocks (the score of a row reads that row alone), so what tile `t` writes back is rows
  `t · 512 … t · 512 + 511` of the score array of the whole arrays. Row `i` lies in tile `i / 512`, so the tiles cover
  the result, and after the run the result array is the score array.
-/
import proofs.«141421_j49589692400134_2_alg».proof.Proof.Gen.KernelIdeal.Value
import proofs.«141421_j49589692400134_2_alg».proof.Proof.TileScore
import proofs.«141421_j49589692400134_2_alg».proof.Proof.Score

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The score array of the arrays as the tiled region finds them. -/
def result (c : Dev nD) : S8192.Idx → EReal :=
  Cert.Score.score (B := 8192) (V m c main_v9) (V m c main_v16) (V m c main_v23) (V m c main_arg6) (V m c main_arg7)
    (V m c main_arg8) (V m c main_arg9)

/-- Where each tile's blocks sit: the three row-indexed arrays and the result move with the tile number along the
    rows; the weights stay whole. Decided over the sixteen tiles. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = t.val :=
  (by decide +kernel : ∀ t : Fin grid0.N, _)

/-- Tile `t`'s block of the aggregated rows, at `(q, k, d)`, is the array at row `t · 512 + q`. -/
theorem read_agg (c : Dev nD) (t : Fin cfg0.N) (q : Fin 512) (k : Fin 4) (d : Fin 128) (R : Fin 8192)
    (hR : R.val = t.val * 512 + q.val) : iblk m c 0 t (ix3 q k d) = V m c main_v9 (ix3 R k d) := by
  obtain ⟨e0, e1, e2, -⟩ := idx_facts t
  show V m c main_v9 (((cfg0.win 0).blk t).view.emb (ix3 q k d)) = _
  refine congrArg (V m c main_v9) (funext fun a => Fin.ext ?_)
  match a with
  | ⟨0, _⟩ => show win0_0.index t (0 : Fin 3) * 512 + 1 * q.val = R.val; omega
  | ⟨1, _⟩ => show win0_0.index t (1 : Fin 3) * 4 + 1 * k.val = k.val; omega
  | ⟨2, _⟩ => show win0_0.index t (2 : Fin 3) * 128 + 1 * d.val = d.val; omega

/-- Tile `t`'s block of the end rows, at `(q, g)`, is the array at row `t · 512 + q`. -/
theorem read_end (c : Dev nD) (t : Fin cfg0.N) (q : Fin 512) (g : Fin 128) (R : Fin 8192)
    (hR : R.val = t.val * 512 + q.val) : iblk m c 1 t (ix2 q g) = V m c main_v16 (ix2 R g) := by
  obtain ⟨-, -, -, e0, e1, -⟩ := idx_facts t
  show V m c main_v16 (((cfg0.win 1).blk t).view.emb (ix2 q g)) = _
  refine congrArg (V m c main_v16) (funext fun a => Fin.ext ?_)
  match a with
  | ⟨0, _⟩ => show win0_1.index t (0 : Fin 2) * 512 + 1 * q.val = R.val; omega
  | ⟨1, _⟩ => show win0_1.index t (1 : Fin 2) * 128 + 1 * g.val = g.val; omega

/-- Tile `t`'s block of the path rows, at `(q, g)`, is the array at row `t · 512 + q`. -/
theorem read_path (c : Dev nD) (t : Fin cfg0.N) (q : Fin 512) (g : Fin 128) (R : Fin 8192)
    (hR : R.val = t.val * 512 + q.val) : iblk m c 2 t (ix2 q g) = V m c main_v23 (ix2 R g) := by
  obtain ⟨-, -, -, -, -, e0, e1, -⟩ := idx_facts t
  show V m c main_v23 (((cfg0.win 2).blk t).view.emb (ix2 q g)) = _
  refine congrArg (V m c main_v23) (funext fun a => Fin.ext ?_)
  match a with
  | ⟨0, _⟩ => show win0_2.index t (0 : Fin 2) * 512 + 1 * q.val = R.val; omega
  | ⟨1, _⟩ => show win0_2.index t (1 : Fin 2) * 128 + 1 * g.val = g.val; omega

/-- Every tile's block of the first weight matrix is the whole matrix. -/
theorem read_W1 (c : Dev nD) (t : Fin cfg0.N) (d f : Fin 128) : iblk m c 3 t (ix2 d f) = V m c main_arg6 (ix2 d f) := by
  obtain ⟨-, -, -, -, -, -, -, e0, e1, -⟩ := idx_facts t
  show V m c main_arg6 (((cfg0.win 3).blk t).view.emb (ix2 d f)) = _
  refine congrArg (V m c main_arg6) (funext fun a => Fin.ext ?_)
  match a with
  | ⟨0, _⟩ => show win0_3.index t (0 : Fin 2) * 128 + 1 * d.val = d.val; omega
  | ⟨1, _⟩ => show win0_3.index t (1 : Fin 2) * 128 + 1 * f.val = f.val; omega

/-- Every tile's block of the first bias is the whole vector. -/
theorem read_b1 (c : Dev nD) (t : Fin cfg0.N) (f : Fin 128) : iblk m c 4 t (ix1 f) = V m c main_arg7 (ix1 f) := by
  obtain ⟨-, -, -, -, -, -, -, -, -, e0, -⟩ := idx_facts t
  show V m c main_arg7 (((cfg0.win 4).blk t).view.emb (ix1 f)) = _
  refine congrArg (V m c main_arg7) (funext fun a => Fin.ext ?_)
  match a with
  | ⟨0, _⟩ => show win0_4.index t (0 : Fin 1) * 128 + 1 * f.val = f.val; omega

/-- Every tile's block of the second weight matrix is the whole matrix. -/
theorem read_W2 (c : Dev nD) (t : Fin cfg0.N) (j : Fin 512) (g : Fin 128) :
    iblk m c 5 t (ix2 j g) = V m c main_arg8 (ix2 j g) := by
  obtain ⟨-, -, -, -, -, -, -, -, -, -, e0, e1, -⟩ := idx_facts t
  show V m c main_arg8 (((cfg0.win 5).blk t).view.emb (ix2 j g)) = _
  refine congrArg (V m c main_arg8) (funext fun a => Fin.ext ?_)
  match a with
  | ⟨0, _⟩ => show win0_5.index t (0 : Fin 2) * 512 + 1 * j.val = j.val; omega
  | ⟨1, _⟩ => show win0_5.index t (1 : Fin 2) * 128 + 1 * g.val = g.val; omega

/-- Every tile's block of the second bias is the whole vector. -/
theorem read_b2 (c : Dev nD) (t : Fin cfg0.N) (g : Fin 128) : iblk m c 6 t (ix1 g) = V m c main_arg9 (ix1 g) := by
  obtain ⟨-, -, -, -, -, -, -, -, -, -, -, -, e0, -⟩ := idx_facts t
  show V m c main_arg9 (((cfg0.win 6).blk t).view.emb (ix1 g)) = _
  refine congrArg (V m c main_arg9) (funext fun a => Fin.ext ?_)
  match a with
  | ⟨0, _⟩ => show win0_6.index t (0 : Fin 1) * 128 + 1 * g.val = g.val; omega

/-- WHAT TILE `t` WRITES BACK is rows `t · 512 … t · 512 + 511` of the score array. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz1]
  simp only [View.ld_unit_zero (S := S512x4x128) hz3, View.ld_unit_zero (S := S128x128) hz2,
    View.ld_unit_zero (S := S128) hz1, View.ld_unit_zero (S := S512x128) hz2]
  funext y
  show k0_pay1 (F := Ideal) (iblk m c 0 t) (iblk m c 3 t) (iblk m c 4 t) (iblk m c 5 t) (iblk m c 6 t) (iblk m c 1 t)
      (iblk m c 2 t) y = result m c (((cfg0.win 7).blk t).view.emb y)
  refine (Cert.TileScore.pay_at (iblk m c 0 t) (iblk m c 3 t) (iblk m c 4 t) (iblk m c 5 t) (iblk m c 6 t) (iblk m c 1 t)
    (iblk m c 2 t) y).trans ?_
  have hR : ((((cfg0.win 7).blk t).view.emb y) 0).val = t.val * 512 + (y 0).val := by
    obtain ⟨-, -, -, -, -, -, -, -, -, -, -, -, -, e7⟩ := idx_facts t
    show win0_7.index t (0 : Fin 1) * 512 + 1 * (y 0).val = t.val * 512 + (y 0).val
    omega
  exact Cert.Score.scoreAt_congr (iblk m c 0 t) (iblk m c 1 t) (iblk m c 2 t) (iblk m c 3 t) (iblk m c 4 t) (iblk m c 5 t)
    (iblk m c 6 t) (V m c main_v9) (V m c main_v16) (V m c main_v23) (V m c main_arg6) (V m c main_arg7) (V m c main_arg8)
    (V m c main_arg9) (y 0) ((((cfg0.win 7).blk t).view.emb y) 0)
    (fun k d => read_agg m c t (y 0) k d _ hR) (fun g => read_end m c t (y 0) g _ hR)
    (fun g => read_path m c t (y 0) g _ hR) (fun d f => read_W1 m c t d f) (fun f => read_b1 m c t f)
    (fun j g => read_W2 m c t j g) (fun g => read_b2 m c t g)

/-- A row is in tile `t`'s block of the result iff it lies in the tile's range of rows. -/
theorem mem_blk (t : Fin cfg0.N) (i : S8192.Idx) :
    i ∈ ((cfg0.win 7).blk t).view.set ↔ ∀ a : Fin 1, win0_7.index t a * S512.size a ≤ (i a).val
      ∧ (i a).val < win0_7.index t a * S512.size a + S512.size a := by
  show i ∈ ((View.whole main_v24).slice (win0_7.rect t)).set ↔ _
  rw [View.set_slice_whole, Rect.mem_set_unit]
  exact Iff.rfl

/-- Every row of the result is in some tile: row `i` is in tile `i / 512`. -/
theorem cover (i : S8192.Idx) : ∃ t : Fin cfg0.N, (cfg0.win 7).flush t = true ∧ i ∈ ((cfg0.win 7).blk t).view.set := by
  have hi : (i 0).val < 8192 := (i 0).isLt
  have hN : grid0.N = 16 := N_0
  have ht : (i 0).val / 512 < grid0.N := by rw [hN]; omega
  refine ⟨⟨(i 0).val / 512, ht⟩, flush0_7 _, ?_⟩
  rw [mem_blk]
  intro a
  obtain ⟨-, -, -, -, -, -, -, -, -, -, -, -, -, e7⟩ := idx_facts ⟨(i 0).val / 512, ht⟩
  match a with
  | ⟨0, _⟩ =>
    show win0_7.index ⟨(i 0).val / 512, ht⟩ (0 : Fin 1) * 512 ≤ (i 0).val
      ∧ (i 0).val < win0_7.index ⟨(i 0).val / 512, ht⟩ (0 : Fin 1) * 512 + 512
    have e : win0_7.index ⟨(i 0).val / 512, ht⟩ (0 : Fin 1) = (i 0).val / 512 := e7
    omega

/-- THE RESULT ARRAY after the run is the score array. -/
theorem final (c : Dev nD) : (dats m 0 c).arrAt 7 cfg0.N = result m c :=
  (dats m 0 c).arrAt_eq_of_cover 7 (result m c) (fun t _ => flushed_eq m c t) cover

/-- The kernel's run: it ends with the result array at the score array and the arguments as launched. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.KernelValue

end
-- ==== Proof.HostPrefix.lean ====
/-
  The three arrays the kernel's tiles are cut from.

  Before the tiles are scored, the kernel's program computes on the host the aggregated neighbour rows (rows of the
  start table gathered along the neighbour indices, summed over the sixteen neighbours of an edge type and divided by
  sixteen), the end rows (rows of the end table gathered along the end indices) and the path rows (rows of the path table
  gathered along the path indices). The reference begins with the same operations on the same arguments. So each of the
  three arrays, as the tiled region finds it, is the reference's stage of the same name applied to the launch contents of
  the arguments; the gathers are never opened.
-/
import proofs.«141421_j49589692400134_2_alg».proof.Proof.Gen.KernelIdeal.Frame
import proofs.«141421_j49589692400134_2_alg».proof.Proof.Gen.ReferenceIdeal.Read
import Idealize.ShloMosaic.Lib.StableHlo.Run

noncomputable section

namespace Cert.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The aggregated neighbour rows. -/
theorem agg_eq (c : Dev nD) :
    (V m c main_v9 : S8192x4x128.Idx → EReal)
      = Cert.ReferenceIdeal.Read.val_main_v9 (F := Ideal) (m ((c : Thread nD τ).loc main_arg0)) (m ((c : Thread nD τ).loc main_arg3)) := by
  dsimp only [V, hostOps0]
  after_results
  rfl

/-- The end rows. -/
theorem end_eq (c : Dev nD) :
    (V m c main_v16 : S8192x128.Idx → EReal)
      = Cert.ReferenceIdeal.Read.val_main_v25 (F := Ideal) (m ((c : Thread nD τ).loc main_arg1)) (m ((c : Thread nD τ).loc main_arg4)) := by
  dsimp only [V, hostOps0]
  after_results_simp
  rfl

/-- The path rows. -/
theorem path_eq (c : Dev nD) :
    (V m c main_v23 : S8192x128.Idx → EReal)
      = Cert.ReferenceIdeal.Read.val_main_v32 (F := Ideal) (m ((c : Thread nD τ).loc main_arg2)) (m ((c : Thread nD τ).loc main_arg5)) := by
  dsimp only [V, hostOps0]
  after_results_simp
  rfl

end Cert.HostPrefix

end
-- ==== Proof.RefScore.lean ====
/-
  The reference computes the score.

  Read one operation at a time, the reference's result at batch row `r` is
  `1 / (1 + exp (−∑ g, s (r, g) · e (r, g) · (1 / (1 + exp (−p (r, g))))))`, with `s` the two affine layers of the
  aggregated neighbour rows: the contraction `∑ d, agg (r, k, d) · W1 (d, f)` over the last axis of the rank-3 array plus
  `b1 f`, reshaped row-major so that column `j` of row `r` is edge type `j / 128`, feature `j % 128`, then
  `∑ j, h (r, j) · W2 (j, g) + b2 g`. The quotient `1 / (1 + exp (−x))` is the squashing function of the extended reals
  by definition, the float word `0x3F800000` is one, and the sum starts from the word zero. The aggregated rows, the end
  rows and the path rows — gathers along integer arrays — are carried as they stand, unopened.
-/
import proofs.«141421_j49589692400134_2_alg».proof.Proof.Gen.ReferenceIdeal.Read
import proofs.«141421_j49589692400134_2_alg».proof.Proof.Score
import Idealize.ShloMosaic.Lib.IdealHost

noncomputable section

namespace Cert.RefScore

open Cert.ReferenceIdeal Cert.ReferenceIdeal.Gen Cert.ReferenceIdeal.Read Idealize.ShloMosaic Idealize.ShloMosaic.ValueIdx

variable (x0 : (⟨S8192x4x16, .i32⟩ : BufTy).Contents (Elt Ideal)) (x1 x2 : (⟨S8192, .i32⟩ : BufTy).Contents (Elt Ideal))
  (x3 x4 : (⟨S1000000x128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S512x128, .f32⟩ : BufTy).Contents (Elt Ideal)) (x9 : (⟨S128, .f32⟩ : BufTy).Contents (Elt Ideal))

/-- The reshaped hidden array at row `r`, column `j`. -/
theorem hidden_eq (r : Fin 8192) (j : Fin 512) :
    val_main_v14 (F := Ideal) x0 x3 x6 x7 (ix2 r j) = Cert.Score.hidden (B := 8192) (val_main_v9 (F := Ideal) x0 x3) x6 x7 r j := by
  have e14 : idx_main_v14 (ix2 r j) = ix3 r (⟨j.val / 128, by omega⟩ : Fin 4) (⟨j.val % 128, by omega⟩ : Fin 128) :=
    funext fun a => Fin.ext (by
      match a with
      | ⟨0, _⟩ => show (r.val * 512 + j.val) / 512 = r.val; omega
      | ⟨1, _⟩ => show (r.val * 512 + j.val) / 128 % 4 = j.val / 128; omega
      | ⟨2, _⟩ => show (r.val * 512 + j.val) % 128 = j.val % 128; omega)
  rw [val_main_v14_apply, e14, val_main_v13_apply, val_main_v10_apply, val_main_v12_apply, val_main_v11_apply]
  unfold Cert.Score.hidden
  refine congr (congrArg _ (Finset.sum_congr rfl fun d _ => ?_)) (congrArg x7 ?_)
  · refine congr (congrArg _ (congrArg _ ?_)) (congrArg x6 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- The projected array at row `r`, column `g`. -/
theorem proj_eq (r : Fin 8192) (g : Fin 128) :
    val_main_v18 (F := Ideal) x0 x3 x6 x7 x8 x9 (ix2 r g)
      = Cert.Score.proj (B := 8192) (val_main_v9 (F := Ideal) x0 x3) x6 x7 x8 x9 r g := by
  rw [val_main_v18_apply, val_main_v15_apply, val_main_v17_apply, val_main_v16_apply]
  unfold Cert.Score.proj
  refine congr (congrArg _ (Finset.sum_congr rfl fun j _ => ?_)) (congrArg x9 ?_)
  · have el : lidx_main_v15 (ix2 r g) j = ix2 r j :=
      funext fun a => Fin.ext (by match a with | ⟨0, _⟩ => rfl | ⟨1, _⟩ => rfl)
    have er : ridx_main_v15 (ix2 r g) j = ix2 j g :=
      funext fun a => Fin.ext (by match a with | ⟨0, _⟩ => rfl | ⟨1, _⟩ => rfl)
    rw [el, er, hidden_eq]
  · exact funext fun a => Fin.ext (by match a with | ⟨0, _⟩ => rfl)

/-- The squashed path rows: the spelled-out quotient is the squashing function. -/
theorem gate_eq (i : S8192x128.Idx) :
    val_main_v38 (F := Ideal) x2 x5 i = Ideal.logistic (val_main_v32 (F := Ideal) x2 x5 i) := by
  rw [val_main_v38_apply, val_main_v37_apply, val_main_cst_7_apply, val_main_v36_apply, val_main_v35_apply,
    val_main_cst_6_apply, val_main_v34_apply, val_main_v33_apply]
  simp only [Ideal.hostDivf_def, Ideal.addf_def, Ideal.hostUnary_exp_def, Ideal.hostNegf_def, Ideal.negf_def,
    Ideal.ofBits_def, Ideal.ofBits_one_f32]
  rfl

/-- THE REFERENCE'S RESULT is the score array of the aggregated rows, the end rows and the path rows. -/
theorem result_eq :
    val_main_v47 (F := Ideal) x0 x1 x2 x3 x4 x5 x6 x7 x8 x9
      = Cert.Score.score (B := 8192) (val_main_v9 (F := Ideal) x0 x3) (val_main_v25 (F := Ideal) x1 x4)
          (val_main_v32 (F := Ideal) x2 x5) x6 x7 x8 x9 := by
  funext i
  obtain ⟨r, rfl⟩ : ∃ r : Fin 8192, i = ix1 r := ⟨i 0, eq_ix1 i⟩
  rw [Cert.Score.score_ix1, val_main_v47_apply, val_main_v46_apply, val_main_cst_10_apply, val_main_v45_apply,
    val_main_v44_apply, val_main_cst_9_apply, val_main_v43_apply, val_main_v42_apply, val_main_v41_apply,
    val_main_cst_8_apply]
  simp only [Ideal.hostDivf_def, Ideal.addf_def, Ideal.hostUnary_exp_def, Ideal.hostNegf_def, Ideal.negf_def,
    Ideal.ofBits_def, Ideal.ofBits_one_f32, Ideal.ofBits_zero_f32, zero_add]
  unfold Cert.Score.scoreAt
  show Ideal.logistic _ = _
  refine congrArg Ideal.logistic (Finset.sum_congr rfl fun g _ => ?_)
  have e41 : idx_main_v41 (ix1 r) g = ix2 r g :=
    funext fun a => Fin.ext (by match a with | ⟨0, _⟩ => rfl | ⟨1, _⟩ => rfl)
  rw [e41, val_main_v40_apply, val_main_v39_apply, proj_eq, gate_eq]
  rfl

end Cert.RefScore

end
-- ==== Proof.lean ====
/-
  The kernel and the reference compute the same link scores over the extended reals.

  Both programs start with the same host operations: rows of the start table gathered along the neighbour indices and
  averaged over the sixteen neighbours of each edge type, rows of the end table gathered along the end indices, rows of
  the path table gathered along the path indices. From there the reference applies, to the whole batch of 8192 rows, an
  affine layer per edge type, lays the four results side by side, applies a second affine layer, multiplies by the end
  rows and by the squashed path rows, sums each row and squashes the sum. The kernel does the same to one tile of 512 rows
  at a time, on the flattened tile. On the extended reals a narrowing of the float format is the identity, a matrix
  product into the zero matrix is the plain sum of products, the squashing `1 / (1 + exp (−x))` is one function however
  it is spelt, and each row's score reads that row alone; so the two results are one function of the arguments, the score
  array (Proof/Score.lean): no law beyond the matching of indices is used, and the inputs need not be finite.

  Proof/TileScore.lean reads the kernel body's result at a row; Proof/KernelValue.lean carries that from tiles to the
  whole array over the generated blockwise run; Proof/HostPrefix.lean names the three arrays the tiles are cut from;
  Proof/RefScore.lean reads the reference's generated run one operation at a time. The frames are the generated ones;
  nothing was rewritten when the kernel was idealized, so there is nothing to preserve.
-/
import proofs.«141421_j49589692400134_2_alg».proof.Defs
import proofs.«141421_j49589692400134_2_alg».proof.Proof.Gen.Kernel
import proofs.«141421_j49589692400134_2_alg».proof.Proof.Gen.Kernel.Skeleton
import proofs.«141421_j49589692400134_2_alg».proof.Proof.Gen.Kernel.Launch
import proofs.«141421_j49589692400134_2_alg».proof.Proof.Gen.Kernel.Points
import proofs.«141421_j49589692400134_2_alg».proof.Proof.Gen.Kernel.Frame
import proofs.«141421_j49589692400134_2_alg».proof.Proof.Gen.KernelIdeal
import proofs.«141421_j49589692400134_2_alg».proof.Proof.Gen.KernelIdeal.Skeleton
import proofs.«141421_j49589692400134_2_alg».proof.Proof.Gen.KernelIdeal.Launch
import proofs.«141421_j49589692400134_2_alg».proof.Proof.Gen.KernelIdeal.Points
import proofs.«141421_j49589692400134_2_alg».proof.Proof.Gen.KernelIdeal.Frame
import proofs.«141421_j49589692400134_2_alg».proof.Proof.Gen.ReferenceIdeal
import proofs.«141421_j49589692400134_2_alg».proof.Proof.Gen.Pre_finite_inputs
import proofs.«141421_j49589692400134_2_alg».proof.Proof.Gen.KernelIdeal.Value
import proofs.«141421_j49589692400134_2_alg».proof.Proof.Gen.ReferenceIdeal.Run
import proofs.«141421_j49589692400134_2_alg».proof.Proof.Gen.ReferenceIdeal.Read
import proofs.«141421_j49589692400134_2_alg».proof.Proof.KernelValue
import proofs.«141421_j49589692400134_2_alg».proof.Proof.HostPrefix
import proofs.«141421_j49589692400134_2_alg».proof.Proof.RefScore
import Idealize.ShloMosaic.Adequacy
import Idealize.ShloMosaic.Init

noncomputable section

namespace Cert.Proof

open Idealize.ShloMosaic Idealize.ShloMosaic.TcCoe Idealize.SL.Sem

/-- The kernel's result array, over the launch contents of the arguments: the score array of the reference's three
    gathered arrays and the four weight arrays. -/
theorem kernel_result (m : (ℓ : Loc Cert.KernelIdeal.nD Cert.KernelIdeal.τ Cert.KernelIdeal.sig) → Buf (Elt Ideal) ℓ)
    (c : Dev Cert.KernelIdeal.nD) :
    Cert.KernelValue.result m c
      = Cert.Score.score (B := 8192)
          (Cert.ReferenceIdeal.Read.val_main_v9 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg3)))
          (Cert.ReferenceIdeal.Read.val_main_v25 (F := Ideal)
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4)))
          (Cert.ReferenceIdeal.Read.val_main_v32 (F := Ideal)
            (m ((c.tc : Thread Cert.KernelIdeal.nD Cert.KernelIdeal.τ).loc Cert.KernelIdeal.main_arg2))
            (m ((c.tc : Thread Cert.KernelIdeal.nD Cert.KernelIdeal.τ).loc Cert.KernelIdeal.main_arg5)))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  unfold Cert.KernelValue.result
  rw [Cert.HostPrefix.agg_eq m c, Cert.HostPrefix.end_eq m c, Cert.HostPrefix.path_eq m c,
    Cert.KernelIdeal.Gen.V_main_arg6 m c, Cert.KernelIdeal.Gen.V_main_arg7 m c, Cert.KernelIdeal.Gen.V_main_arg8 m c,
    Cert.KernelIdeal.Gen.V_main_arg9 m c]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the score array of those arguments. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  show _ = Cert.KernelValue.result m c
  rw [kernel_result m c, ← a0, ← a1, ← a2, ← a3, ← a4, ← a5, ← a6, ← a7, ← a8, ← a9]
  exact (Cert.ReferenceIdeal.Read.val_main_v47_eq _ _ _ _ _ _ _ _ _ _).trans (Cert.RefScore.result_eq _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
